-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S200x10000 : Shape := ⟨2, ![200, 10000]⟩
abbrev S200x128 : Shape := ⟨2, ![200, 128]⟩

abbrev nBuf : Space → Nat
  | .hbm => 11
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S200x10000, .f32⟩
  | .local _ .vmem, ⟨7, _⟩ => ⟨S200x10000, .f32⟩
  | .local _ .vmem, ⟨8, _⟩ => ⟨S10000x128, .f32⟩
  | .local _ .vmem, ⟨9, _⟩ => ⟨S128x128, .f32⟩
  | .local _ .vmem, ⟨10, _⟩ => ⟨S1x128, .f32⟩
  | .local _ .vmem, ⟨11, _⟩ => ⟨S200x128, .f32⟩
  | .local _ .vmem, ⟨12, _⟩ => ⟨S200x128, .f32⟩
  | .local _ .vmem, ⟨13, _⟩ => ⟨S200x10000, .f32⟩
  | .local _ .vmem, ⟨14, _⟩ => ⟨S200x10000, .f32⟩
  | .local _ .vmem, ⟨15, _⟩ => ⟨S10000x128, .f32⟩
  | .local _ .vmem, ⟨16, _⟩ => ⟨S200x128, .f32⟩
  | .local _ .vmem, ⟨17, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S200x128 : S1x128.Broadcasts S200x128
  inb_S200x128_S200x128_0_0 : ∀ a, (![0, 0] : Fin 2 → Nat) a + S200x128.size a ≤ S200x128.size a
  h_S200x128 : 0 < S200x128.numel
  dot_S2000x128_S128x128_S2000x128_1_0_0_1_n_n_wf : DotDims.WF S2000x128 S128x128 S2000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .f32 = 32 ∨ (Rect.block (s := S10000x128) S200x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x128.size a ≤ S10000x128.size a
  hwx2_2 : ∀ i : grid2.Coords, EltTy.bits .f32 = 32 ∨ (Rect.block (s := S10000x128) S200x128.size (cc2_transform_2 i) (hinb2_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S200x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.NamedRun.lean ====
/-
  The kernel program's run with every buffer named at the end.

  The program is a short line of host operations followed by three pipelined regions. Its run is the launch of
  that list of segments; the thread state the last segment leaves holds every unscoped buffer at the contents of
  the last segment boundary. Reading that state against the final memory names each buffer's final contents — in
  particular the result buffer's, which is the third region's output array after its write-backs, and each
  argument's, which is as launched.
-/
import proofs.«105079_g88072599371918_cont_9to1c4b_380_3_alg».proof.Proof.Gen.KernelIdeal.Frame

set_option maxRecDepth 16384

noncomputable section

namespace Cert.Gcn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- matching the launch theorem's conclusion against this statement has to unfold plain definitions inside types
set_option backward.isDefEq.respectTransparency.types false in
/-- Every weakly fair execution of the program terminates, nothing faulting, with every unscoped buffer of every core
    at the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result buffer named: it ends at the last boundary's contents of that buffer, and each argument
    ends as launched. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)
    (run_all m ρ)

end Cert.Gcn.Run

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.Layers.lean ====
/-
  A two-layer graph convolution on arrays of extended reals.

  With a propagation matrix g (n × n), features x (n × d), weights w₁ (d × h), w₂ (h × o) and bias rows b₁, b₂,
  the network is
      out = g · (relu (g · (x · w₁ + b₁)) · w₂ + b₂).
  It is built here from three pieces, each given index by index: the matrix product, the product with a bias
  row added, and the positive part. Every piece computes row p of its result from row p of its FIRST operand
  alone, so taking a band of consecutive rows commutes with each of them: the band of rows of a product is the
  product of the band. That is the whole reason a computation tiled over bands of rows yields the untiled one.
-/
import Idealize.ShloMosaic.Lib.ValueIdx

noncomputable section

open scoped BigOperators

namespace Cert.Gcn

open Idealize.ShloMosaic Idealize.ShloMosaic.ValueIdx

/-- The indices of an a × b matrix. -/
abbrev MIdx (a b : ℕ) : Type := (⟨2, ![a, b]⟩ : Shape).Idx

/-- An a × b matrix of extended reals. -/
abbrev Mat (a b : ℕ) : Type := MIdx a b → EReal

variable {M K N : ℕ}

/-- The matrix product: entry (p, q) is the sum over l of g (p, l) · h (l, q). -/
def prod (g : Mat M K) (h : Mat K N) : Mat M N :=
  fun i => ∑ l : Fin K, g (ix2 (n0 := M) (n1 := K) (i 0) l) * h (ix2 (n0 := K) (n1 := N) l (i 1))

/-- A linear layer: the product with the one bias row added to every row. -/
def affine (x : Mat M K) (w : Mat K N) (b : Mat 1 N) : Mat M N :=
  fun i => prod x w i + b (ix2 (n0 := 1) (n1 := N) (0 : Fin 1) (i 1))

/-- The positive part, entry by entry (the zero is the float pattern of +0). -/
def relu (h : Mat M N) : Mat M N :=
  fun i => max (h i) (Ideal.ofBits .f32 0x00000000#32)

/-- A length-n vector laid out as the one row of a 1 × n matrix. -/
def asRow {α : Type} (b : (⟨1, ![N]⟩ : Shape).Idx → α) : MIdx 1 N → α :=
  fun j => b (ix1 (n := N) (j 1))

/-- The band of R consecutive rows of a matrix that starts at row o. -/
def rows {α : Type} (R o : ℕ) (ho : o + R ≤ M) (x : MIdx M K → α) : MIdx R K → α :=
  fun j => x (ix2 (n0 := M) (n1 := K) ⟨o + (j 0).val, by have := (j 0).isLt; change (j 0).val < R at this; omega⟩ (j 1))

/-- Rows of a product: only the left factor's rows enter. -/
theorem rows_prod (R o : ℕ) (ho : o + R ≤ M) (g : Mat M K) (h : Mat K N) :
    rows R o ho (prod g h) = prod (rows R o ho g) h := rfl

/-- Rows of a linear layer: the bias row is the same for every row. -/
theorem rows_affine (R o : ℕ) (ho : o + R ≤ M) (x : Mat M K) (w : Mat K N) (b : Mat 1 N) :
    rows R o ho (affine x w b) = affine (rows R o ho x) w b := rfl

/-- Rows of the positive part. -/
theorem rows_relu (R o : ℕ) (ho : o + R ≤ M) (h : Mat M N) :
    rows R o ho (relu h) = relu (rows R o ho h) := rfl

/-- The two-layer network as one function of its six arguments. -/
def net {n d h o : ℕ} (x : Mat n d) (g : Mat n n) (w₁ : Mat d h) (b₁ : Mat 1 h) (w₂ : Mat h o) (b₂ : Mat 1 o) : Mat n o :=
  prod g (affine (relu (prod g (affine x w₁ b₁))) w₂ b₂)

end Cert.Gcn

end
-- ==== Proof.Payloads.lean ====
/-
  What each of the three kernel bodies computes from the blocks it loads, at the ideal values.

  The first body multiplies its band of feature rows by the weight matrix and adds the bias row: a linear layer on
  the band. The second multiplies its band of propagation rows by the whole hidden array, takes the positive part,
  and applies the second linear layer. The third multiplies its band of propagation rows by the whole array. A
  matrix unit's product into a zero accumulator is the plain sum over the contracted index; a cast of an array to
  its own shape is the array; broadcasting a one-row array over many rows reads the row.
-/
import proofs.«105079_g88072599371918_cont_9to1c4b_380_3_alg».proof.Proof.Gen.KernelIdeal.Skeleton
import proofs.«105079_g88072599371918_cont_9to1c4b_380_3_alg».proof.Proof.LibPlainDot
import proofs.«105079_g88072599371918_cont_9to1c4b_380_3_alg».proof.Proof.Layers
import Idealize.ShloMosaic.Lib.Pipeline.Value
import Idealize.ShloMosaic.Lib.ValueLayout

noncomputable section

open scoped BigOperators

namespace Cert.Gcn

open Idealize.ShloMosaic Idealize.ShloMosaic.ValueIdx
open Cert.KernelIdeal Cert.KernelIdeal.Gen

/-- A matrix unit's product of an M × K by a K × N array into the zero accumulator is the matrix product. -/
theorem matmul_zero_eq_prod {M K N : ℕ} (x : FVec Ideal ⟨2, ![M, K]⟩ .f32) (y : FVec Ideal ⟨2, ![K, N]⟩ .f32) :
    FloatOps.matmul (DotDims.plain M K N) none x y (constant (F := Ideal) ⟨2, ![M, N]⟩ .f32 0x00000000#32) = prod x y := by
  funext j
  obtain ⟨p, q, rfl⟩ : ∃ (p : Fin M) (q : Fin N), j = ix2 p q := ⟨j 0, j 1, eq_ix2 j⟩
  exact LibPlainDot.matmul_zero_apply none x y p q

/-- One bias row broadcast over R rows and added to an R × N array adds the row to every row. -/
theorem add_row_apply {R N : ℕ} (y : FVec Ideal ⟨2, ![R, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (q : Fin N) :
    addf y (broadcastTo ⟨2, ![R, N]⟩ (shapeCast ⟨2, ![1, N]⟩ b hc) hb) (ix2 p q) = y (ix2 p q) + b (ix2 (0 : Fin 1) q) := by
  refine (addf_apply _ _ _).trans (congrArg (y (ix2 p q) + ·) ?_)
  refine (broadcastTo_1b_ab_apply _ hb p q).trans ?_
  exact congrFun (shapeCast_self b hc) _

/-- The projection body: a linear layer on its band of 2000 feature rows. -/
theorem proj_payload (x : FVec Ideal S2000x128 .f32) (w : FVec Ideal S128x128 .f32) (b : FVec Ideal S1x128 .f32) :
    k0_pay1 (F := Ideal) x w b = affine (M := 2000) (K := 128) (N := 128) x w b := by
  funext j
  obtain ⟨p, q, rfl⟩ : ∃ (p : Fin 2000) (q : Fin 128), j = ix2 p q := ⟨j 0, j 1, eq_ix2 j⟩
  unfold k0_pay1
  refine (add_row_apply (R := 2000) (N := 128) _ b _ _ p q).trans ?_
  exact congrArg (· + b (ix2 (0 : Fin 1) q)) (congrFun (matmul_zero_eq_prod (M := 2000) (K := 128) (N := 128) x w) (ix2 p q))

/-- The second propagation body: its band of 200 propagation rows times the whole array. -/
theorem prop2_payload (g : FVec Ideal S200x10000 .f32) (h : FVec Ideal S10000x128 .f32) :
    k2_pay1 (F := Ideal) g h = prod (M := 200) (K := 10000) (N := 128) g h := by
  unfold k2_pay1
  refine Eq.trans ?_ (matmul_zero_eq_prod (M := 200) (K := 10000) (N := 128) g h)
  exact congrArg (fun z => FloatOps.matmul (DotDims.plain 200 10000 128) none g z (constant (F := Ideal) ⟨2, ![200, 128]⟩ .f32 0x00000000#32))
    (shapeCast_self h _)

/-- The first propagation body: band times the whole hidden array, positive part, then the second linear layer. -/
theorem prop1_payload (g : FVec Ideal S200x10000 .f32) (h : FVec Ideal S10000x128 .f32) (w : FVec Ideal S128x128 .f32)
    (b : FVec Ideal S1x128 .f32) :
    k1_pay1 (F := Ideal) g h w b
      = affine (M := 200) (K := 128) (N := 128) (relu (prod (M := 200) (K := 10000) (N := 128) g h)) w b := by
  funext j
  obtain ⟨p, q, rfl⟩ : ∃ (p : Fin 200) (q : Fin 128), j = ix2 p q := ⟨j 0, j 1, eq_ix2 j⟩
  unfold k1_pay1
  refine (add_row_apply (R := 200) (N := 128) _ b _ _ p q).trans ?_
  refine congrArg (· + b (ix2 (0 : Fin 1) q)) ?_
  refine (congrFun (matmul_zero_eq_prod (M := 200) (K := 128) (N := 128) _ w) (ix2 p q)).trans ?_
  refine congrArg (fun z : Mat 200 128 => prod (M := 200) (K := 128) (N := 128) z w (ix2 p q)) ?_
  funext i
  refine (maximumf_apply _ _ i).trans ?_
  refine congrArg (fun z : EReal => max z (Ideal.ofBits .f32 0x00000000#32)) ?_
  exact congrFun (prop2_payload g h) i

end Cert.Gcn

end
-- ==== Proof.Region0.lean ====
/-
  The first region: the input projection, tiled over five bands of 2000 feature rows.

  At grid point t the pipeline stages rows 2000·t … 2000·t + 1999 of the feature array, the whole weight matrix and
  the whole bias row, and writes the body's result back to the same band of rows of the output array. The body
  computes the linear layer of its band, and the band of rows of a linear layer is the linear layer of the band;
  the five bands tile the 10000 rows. So when the region is left the output array is the linear layer of the
  whole feature array. Everything is stated for arbitrary contents at the region's entry.
-/
import proofs.«105079_g88072599371918_cont_9to1c4b_380_3_alg».proof.Proof.Gen.KernelIdeal.Frame
import proofs.«105079_g88072599371918_cont_9to1c4b_380_3_alg».proof.Proof.Payloads
import Idealize.ShloMosaic.Lib.Pipeline.Value

set_option maxRecDepth 16384

noncomputable section

namespace Cert.Gcn.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The grid has five points. -/
theorem point_lt (t : Fin cfg0.N) : t.val < 5 := lt_of_lt_of_eq t.isLt N_0

/-- The index maps over the grid: the feature window and the output window sit on row block t, the weight and bias
    windows on block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point t is the band of rows starting at 2000·t. -/
theorem block_features (c : Dev nD) (t : Fin cfg0.N) :
    (iblk0 V c 0 t : MIdx 2000 128 → EReal)
      = rows 2000 (2000 * t.val) (by have := point_lt t; omega) (V c main_arg0 : Mat 10000 128) := by
  funext j
  obtain ⟨e0, e1, -⟩ := index_maps t
  show (V c main_arg0 : Mat 10000 128) (((cfg0.win 0).blk t).view.emb j) = _
  refine congrArg (V c main_arg0 : Mat 10000 128) ?_
  funext a
  apply Fin.ext
  match a with
  | ⟨0, _⟩ => show win0_0.index t (0 : Fin 2) * 2000 + 1 * (j 0).val = 2000 * t.val + (j 0).val; rw [e0]; omega
  | ⟨1, _⟩ => show win0_0.index t (1 : Fin 2) * 128 + 1 * (j 1).val = (j 1).val; rw [e1]; omega

/-- The weight window's block is the whole weight matrix at every point. -/
theorem block_weights (c : Dev nD) (t : Fin cfg0.N) :
    (iblk0 V c 1 t : MIdx 128 128 → EReal) = (V c main_arg2 : Mat 128 128) := by
  funext j
  obtain ⟨-, -, e2, e3, -⟩ := index_maps t
  show (V c main_arg2 : Mat 128 128) (((cfg0.win 1).blk t).view.emb j) = _
  refine congrArg (V c main_arg2 : Mat 128 128) ?_
  funext a
  apply Fin.ext
  match a with
  | ⟨0, _⟩ => show win0_1.index t (0 : Fin 2) * 128 + 1 * (j 0).val = (j 0).val; rw [e2]; omega
  | ⟨1, _⟩ => show win0_1.index t (1 : Fin 2) * 128 + 1 * (j 1).val = (j 1).val; rw [e3]; omega

/-- The bias window's block is the whole bias row at every point. -/
theorem block_bias (c : Dev nD) (t : Fin cfg0.N) :
    (iblk0 V c 2 t : MIdx 1 128 → EReal) = (V c main_v0 : Mat 1 128) := by
  funext j
  obtain ⟨-, -, -, -, e4, e5, -⟩ := index_maps t
  show (V c main_v0 : Mat 1 128) (((cfg0.win 2).blk t).view.emb j) = _
  refine congrArg (V c main_v0 : Mat 1 128) ?_
  funext a
  apply Fin.ext
  match a with
  | ⟨0, _⟩ => show win0_2.index t (0 : Fin 2) * 1 + 1 * (j 0).val = (j 0).val; rw [e4]; omega
  | ⟨1, _⟩ => show win0_2.index t (1 : Fin 2) * 128 + 1 * (j 1).val = (j 1).val; rw [e5]; omega

/-- Any array of the output's shape, read through the output window's block at point t, is its band of rows
    starting at 2000·t. -/
theorem block_output (c : Dev nD) (t : Fin cfg0.N) (G : Mat 10000 128) :
    (((cfg0.win 3).blk t).view.read (Elt Ideal) G : MIdx 2000 128 → EReal)
      = rows 2000 (2000 * t.val) (by have := point_lt t; omega) G := by
  funext j
  obtain ⟨-, -, -, -, -, -, e6, e7⟩ := index_maps t
  show G (((cfg0.win 3).blk t).view.emb j) = _
  refine congrArg G ?_
  funext a
  apply Fin.ext
  match a with
  | ⟨0, _⟩ => show win0_3.index t (0 : Fin 2) * 2000 + 1 * (j 0).val = 2000 * t.val + (j 0).val; rw [e6]; omega
  | ⟨1, _⟩ => show win0_3.index t (1 : Fin 2) * 128 + 1 * (j 1).val = (j 1).val; rw [e7]; omega

/-- What point t writes back is the block at t of the linear layer of the arrays the region found. -/
theorem written_back (c : Dev nD) (t : Fin cfg0.N) :
    (dat0 (F := Ideal) V c).flushed 3 t
      = ((cfg0.win 3).blk t).view.read (Elt Ideal)
          (affine (V c main_arg0 : Mat 10000 128) (V c main_arg2 : Mat 128 128) (V c main_v0 : Mat 1 128)) := by
  show (cfg0.win 3).cut (grid0.coords t) ((dat0 (F := Ideal) V c).after 3 t) = _
  rw [after0_3]
  unfold out0_3
  rw [View.canon_unit_zero zero_offsets]
  simp only [View.ld_unit_zero (S := S2000x128) zero_offsets, View.ld_unit_zero (S := S128x128) zero_offsets,
    View.ld_unit_zero (S := S1x128) zero_offsets]
  funext j
  show k0_pay1 (F := Ideal) (iblk0 V c 0 t) (iblk0 V c 1 t) (iblk0 V c 2 t) j = _
  refine (congrFun (proj_payload _ _ _) j).trans ?_
  rw [block_features V c t, block_weights V c t, block_bias V c t]
  exact (congrFun (block_output c t
    (affine (V c main_arg0 : Mat 10000 128) (V c main_arg2 : Mat 128 128) (V c main_v0 : Mat 1 128))) j).symm

/-- An index of the output array lies in point t's block iff each coordinate lies in the block's range. -/
theorem mem_block (t : Fin cfg0.N) (i : S10000x128.Idx) :
    i ∈ ((cfg0.win 3).blk t).view.set
      ↔ ∀ a : Fin 2, win0_3.index t a * S2000x128.size a ≤ (i a).val
          ∧ (i a).val < win0_3.index t a * S2000x128.size a + S2000x128.size a := by
  show i ∈ ((View.whole main_v2).slice (win0_3.rect t)).set ↔ _
  rw [View.set_slice_whole, Rect.mem_set_unit]
  exact Iff.rfl

/-- Every row lies in the band of the point that is its quotient by 2000. -/
theorem covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 5 := N_0
  refine ⟨⟨(i 0).val / 2000, by rw [hN]; omega⟩, flush0_3 _, (mem_block _ i).mpr fun a => ?_⟩
  obtain ⟨-, -, -, -, -, -, e6, e7⟩ := index_maps ⟨(i 0).val / 2000, by rw [hN]; omega⟩
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e7]; omega

/-- When the region is left its output array is the linear layer of the arrays it found. -/
theorem output (c : Dev nD) :
    (dat0 (F := Ideal) V c).arrAt 3 cfg0.N
      = affine (V c main_arg0 : Mat 10000 128) (V c main_arg2 : Mat 128 128) (V c main_v0 : Mat 1 128) :=
  (dat0 (F := Ideal) V c).arrAt_eq_of_cover 3 _ (fun t _ => written_back V c t) covered

end Cert.Gcn.Region0

end
-- ==== Proof.Region1.lean ====
/-
  The second region: the first propagation, the positive part and the second linear layer, tiled over fifty bands
  of 200 rows.

  At grid point t the pipeline stages rows 200·t … 200·t + 199 of the propagation matrix and, whole, the hidden
  array, the second weight matrix and the second bias row, and writes the body's result back to the same band of
  rows of the output array. The body multiplies its band by the hidden array, takes the positive part and applies
  the linear layer; each of these three steps computes a row from the same row of its first operand, so the band of
  rows of the whole computation is the computation on the band. The fifty bands tile the 10000 rows. Everything is
  stated for arbitrary contents at the region's entry.
-/
import proofs.«105079_g88072599371918_cont_9to1c4b_380_3_alg».proof.Proof.Gen.KernelIdeal.Frame
import proofs.«105079_g88072599371918_cont_9to1c4b_380_3_alg».proof.Proof.Payloads
import Idealize.ShloMosaic.Lib.Pipeline.Value

set_option maxRecDepth 16384

noncomputable section

namespace Cert.Gcn.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The grid has fifty points. -/
theorem point_lt (t : Fin cfg1.N) : t.val < 50 := lt_of_lt_of_eq t.isLt N_1

/-- The index maps over the grid: the propagation window and the output window sit on row block t, the other three
    windows on block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The propagation window's block at point t is the band of rows starting at 200·t. -/
theorem block_propagation (c : Dev nD) (t : Fin cfg1.N) :
    (iblk1 V c 0 t : MIdx 200 10000 → EReal)
      = rows 200 (200 * t.val) (by have := point_lt t; omega) (V c main_arg1 : Mat 10000 10000) := by
  funext j
  obtain ⟨e0, e1, -⟩ := index_maps t
  show (V c main_arg1 : Mat 10000 10000) (((cfg1.win 0).blk t).view.emb j) = _
  refine congrArg (V c main_arg1 : Mat 10000 10000) ?_
  funext a
  apply Fin.ext
  match a with
  | ⟨0, _⟩ => show win1_0.index t (0 : Fin 2) * 200 + 1 * (j 0).val = 200 * t.val + (j 0).val; rw [e0]; omega
  | ⟨1, _⟩ => show win1_0.index t (1 : Fin 2) * 10000 + 1 * (j 1).val = (j 1).val; rw [e1]; omega

/-- The hidden window's block is the whole hidden array at every point. -/
theorem block_hidden (c : Dev nD) (t : Fin cfg1.N) :
    (iblk1 V c 1 t : MIdx 10000 128 → EReal) = (V c main_v2 : Mat 10000 128) := by
  funext j
  obtain ⟨-, -, e2, e3, -⟩ := index_maps t
  show (V c main_v2 : Mat 10000 128) (((cfg1.win 1).blk t).view.emb j) = _
  refine congrArg (V c main_v2 : Mat 10000 128) ?_
  funext a
  apply Fin.ext
  match a with
  | ⟨0, _⟩ => show win1_1.index t (0 : Fin 2) * 10000 + 1 * (j 0).val = (j 0).val; rw [e2]; omega
  | ⟨1, _⟩ => show win1_1.index t (1 : Fin 2) * 128 + 1 * (j 1).val = (j 1).val; rw [e3]; omega

/-- The weight window's block is the whole second weight matrix at every point. -/
theorem block_weights (c : Dev nD) (t : Fin cfg1.N) :
    (iblk1 V c 2 t : MIdx 128 128 → EReal) = (V c main_arg4 : Mat 128 128) := by
  funext j
  obtain ⟨-, -, -, -, e4, e5, -⟩ := index_maps t
  show (V c main_arg4 : Mat 128 128) (((cfg1.win 2).blk t).view.emb j) = _
  refine congrArg (V c main_arg4 : Mat 128 128) ?_
  funext a
  apply Fin.ext
  match a with
  | ⟨0, _⟩ => show win1_2.index t (0 : Fin 2) * 128 + 1 * (j 0).val = (j 0).val; rw [e4]; omega
  | ⟨1, _⟩ => show win1_2.index t (1 : Fin 2) * 128 + 1 * (j 1).val = (j 1).val; rw [e5]; omega

/-- The bias window's block is the whole second bias row at every point. -/
theorem block_bias (c : Dev nD) (t : Fin cfg1.N) :
    (iblk1 V c 3 t : MIdx 1 128 → EReal) = (V c main_v1 : Mat 1 128) := by
  funext j
  obtain ⟨-, -, -, -, -, -, e6, e7, -⟩ := index_maps t
  show (V c main_v1 : Mat 1 128) (((cfg1.win 3).blk t).view.emb j) = _
  refine congrArg (V c main_v1 : Mat 1 128) ?_
  funext a
  apply Fin.ext
  match a with
  | ⟨0, _⟩ => show win1_3.index t (0 : Fin 2) * 1 + 1 * (j 0).val = (j 0).val; rw [e6]; omega
  | ⟨1, _⟩ => show win1_3.index t (1 : Fin 2) * 128 + 1 * (j 1).val = (j 1).val; rw [e7]; omega

/-- Any array of the output's shape, read through the output window's block at point t, is its band of rows
    starting at 200·t. -/
theorem block_output (c : Dev nD) (t : Fin cfg1.N) (G : Mat 10000 128) :
    (((cfg1.win 4).blk t).view.read (Elt Ideal) G : MIdx 200 128 → EReal)
      = rows 200 (200 * t.val) (by have := point_lt t; omega) G := by
  funext j
  obtain ⟨-, -, -, -, -, -, -, -, e8, e9⟩ := index_maps t
  show G (((cfg1.win 4).blk t).view.emb j) = _
  refine congrArg G ?_
  funext a
  apply Fin.ext
  match a with
  | ⟨0, _⟩ => show win1_4.index t (0 : Fin 2) * 200 + 1 * (j 0).val = 200 * t.val + (j 0).val; rw [e8]; omega
  | ⟨1, _⟩ => show win1_4.index t (1 : Fin 2) * 128 + 1 * (j 1).val = (j 1).val; rw [e9]; omega

/-- The region's result as one function of the arrays it found. -/
abbrev layer (c : Dev nD) : Mat 10000 128 :=
  affine (relu (prod (V c main_arg1 : Mat 10000 10000) (V c main_v2 : Mat 10000 128))) (V c main_arg4 : Mat 128 128)
    (V c main_v1 : Mat 1 128)

/-- What point t writes back is the block at t of that function. -/
theorem written_back (c : Dev nD) (t : Fin cfg1.N) :
    (dat1 (F := Ideal) V c).flushed 4 t = ((cfg1.win 4).blk t).view.read (Elt Ideal) (layer V c) := by
  show (cfg1.win 4).cut (grid1.coords t) ((dat1 (F := Ideal) V c).after 4 t) = _
  rw [after1_4]
  unfold out1_4
  rw [View.canon_unit_zero zero_offsets]
  simp only [View.ld_unit_zero (S := S200x10000) zero_offsets, View.ld_unit_zero (S := S10000x128) zero_offsets,
    View.ld_unit_zero (S := S128x128) zero_offsets, View.ld_unit_zero (S := S1x128) zero_offsets]
  funext j
  show k1_pay1 (F := Ideal) (iblk1 V c 0 t) (iblk1 V c 1 t) (iblk1 V c 2 t) (iblk1 V c 3 t) j = _
  refine (congrFun (prop1_payload _ _ _ _) j).trans ?_
  rw [block_propagation V c t, block_hidden V c t, block_weights V c t, block_bias V c t]
  exact (congrFun (block_output c t (layer V c)) j).symm

/-- An index of the output array lies in point t's block iff each coordinate lies in the block's range. -/
theorem mem_block (t : Fin cfg1.N) (i : S10000x128.Idx) :
    i ∈ ((cfg1.win 4).blk t).view.set
      ↔ ∀ a : Fin 2, win1_4.index t a * S200x128.size a ≤ (i a).val
          ∧ (i a).val < win1_4.index t a * S200x128.size a + S200x128.size a := by
  show i ∈ ((View.whole main_v3).slice (win1_4.rect t)).set ↔ _
  rw [View.set_slice_whole, Rect.mem_set_unit]
  exact Iff.rfl

/-- Every row lies in the band of the point that is its quotient by 200. -/
theorem covered (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  have hN : cfg1.N = 50 := N_1
  refine ⟨⟨(i 0).val / 200, by rw [hN]; omega⟩, flush1_4 _, (mem_block _ i).mpr fun a => ?_⟩
  obtain ⟨-, -, -, -, -, -, -, -, e8, e9⟩ := index_maps ⟨(i 0).val / 200, by rw [hN]; omega⟩
  match a with
  | ⟨0, _⟩ =>
    show win1_4.index _ (0 : Fin 2) * 200 ≤ (i 0).val ∧ (i 0).val < win1_4.index _ (0 : Fin 2) * 200 + 200
    rw [e8]; show (i 0).val / 200 * 200 ≤ (i 0).val ∧ (i 0).val < (i 0).val / 200 * 200 + 200; omega
  | ⟨1, _⟩ =>
    show win1_4.index _ (1 : Fin 2) * 128 ≤ (i 1).val ∧ (i 1).val < win1_4.index _ (1 : Fin 2) * 128 + 128
    rw [e9]; omega

/-- When the region is left its output array is that function of the arrays it found. -/
theorem output (c : Dev nD) : (dat1 (F := Ideal) V c).arrAt 4 cfg1.N = layer V c :=
  (dat1 (F := Ideal) V c).arrAt_eq_of_cover 4 _ (fun t _ => written_back V c t) covered

end Cert.Gcn.Region1

end
-- ==== Proof.Region2.lean ====
/-
  The third region: the second propagation, tiled over fifty bands of 200 rows.

  At grid point t the pipeline stages rows 200·t … 200·t + 199 of the propagation matrix and the whole array to be
  propagated, and writes the body's product back to the same band of rows of the output array. The band of rows of
  a matrix product is the product of the band of the left factor, and the fifty bands tile the 10000 rows, so when
  the region is left the output array is the whole product. Everything is stated for arbitrary contents at the
  region's entry.
-/
import proofs.«105079_g88072599371918_cont_9to1c4b_380_3_alg».proof.Proof.Gen.KernelIdeal.Frame
import proofs.«105079_g88072599371918_cont_9to1c4b_380_3_alg».proof.Proof.Payloads
import Idealize.ShloMosaic.Lib.Pipeline.Value

set_option maxRecDepth 16384

noncomputable section

namespace Cert.Gcn.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The grid has fifty points. -/
theorem point_lt (t : Fin cfg2.N) : t.val < 50 := lt_of_lt_of_eq t.isLt N_2

/-- The index maps over the grid: the propagation window and the output window sit on row block t, the window of
    the array to be propagated on block (0, 0). -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The propagation window's block at point t is the band of rows starting at 200·t. -/
theorem block_propagation (c : Dev nD) (t : Fin cfg2.N) :
    (iblk2 V c 0 t : MIdx 200 10000 → EReal)
      = rows 200 (200 * t.val) (by have := point_lt t; omega) (V c main_arg1 : Mat 10000 10000) := by
  funext j
  obtain ⟨e0, e1, -⟩ := index_maps t
  show (V c main_arg1 : Mat 10000 10000) (((cfg2.win 0).blk t).view.emb j) = _
  refine congrArg (V c main_arg1 : Mat 10000 10000) ?_
  funext a
  apply Fin.ext
  match a with
  | ⟨0, _⟩ => show win2_0.index t (0 : Fin 2) * 200 + 1 * (j 0).val = 200 * t.val + (j 0).val; rw [e0]; omega
  | ⟨1, _⟩ => show win2_0.index t (1 : Fin 2) * 10000 + 1 * (j 1).val = (j 1).val; rw [e1]; omega

/-- The other input window's block is the whole array at every point. -/
theorem block_operand (c : Dev nD) (t : Fin cfg2.N) :
    (iblk2 V c 1 t : MIdx 10000 128 → EReal) = (V c main_v3 : Mat 10000 128) := by
  funext j
  obtain ⟨-, -, e2, e3, -⟩ := index_maps t
  show (V c main_v3 : Mat 10000 128) (((cfg2.win 1).blk t).view.emb j) = _
  refine congrArg (V c main_v3 : Mat 10000 128) ?_
  funext a
  apply Fin.ext
  match a with
  | ⟨0, _⟩ => show win2_1.index t (0 : Fin 2) * 10000 + 1 * (j 0).val = (j 0).val; rw [e2]; omega
  | ⟨1, _⟩ => show win2_1.index t (1 : Fin 2) * 128 + 1 * (j 1).val = (j 1).val; rw [e3]; omega

/-- Any array of the output's shape, read through the output window's block at point t, is its band of rows
    starting at 200·t. -/
theorem block_output (c : Dev nD) (t : Fin cfg2.N) (G : Mat 10000 128) :
    (((cfg2.win 2).blk t).view.read (Elt Ideal) G : MIdx 200 128 → EReal)
      = rows 200 (200 * t.val) (by have := point_lt t; omega) G := by
  funext j
  obtain ⟨-, -, -, -, e4, e5⟩ := index_maps t
  show G (((cfg2.win 2).blk t).view.emb j) = _
  refine congrArg G ?_
  funext a
  apply Fin.ext
  match a with
  | ⟨0, _⟩ => show win2_2.index t (0 : Fin 2) * 200 + 1 * (j 0).val = 200 * t.val + (j 0).val; rw [e4]; omega
  | ⟨1, _⟩ => show win2_2.index t (1 : Fin 2) * 128 + 1 * (j 1).val = (j 1).val; rw [e5]; omega

/-- The region's result as one function of the arrays it found. -/
abbrev product (c : Dev nD) : Mat 10000 128 :=
  prod (V c main_arg1 : Mat 10000 10000) (V c main_v3 : Mat 10000 128)

/-- What point t writes back is the block at t of the product of the arrays the region found. -/
theorem written_back (c : Dev nD) (t : Fin cfg2.N) :
    (dat2 (F := Ideal) V c).flushed 2 t = ((cfg2.win 2).blk t).view.read (Elt Ideal) (product V c) := by
  show (cfg2.win 2).cut (grid2.coords t) ((dat2 (F := Ideal) V c).after 2 t) = _
  rw [after2_2]
  unfold out2_2
  rw [View.canon_unit_zero zero_offsets]
  simp only [View.ld_unit_zero (S := S200x10000) zero_offsets, View.ld_unit_zero (S := S10000x128) zero_offsets]
  funext j
  show k2_pay1 (F := Ideal) (iblk2 V c 0 t) (iblk2 V c 1 t) j = _
  refine (congrFun (prop2_payload _ _) j).trans ?_
  rw [block_propagation V c t, block_operand V c t]
  exact (congrFun (block_output c t (product V c)) j).symm

/-- An index of the output array lies in point t's block iff each coordinate lies in the block's range. -/
theorem mem_block (t : Fin cfg2.N) (i : S10000x128.Idx) :
    i ∈ ((cfg2.win 2).blk t).view.set
      ↔ ∀ a : Fin 2, win2_2.index t a * S200x128.size a ≤ (i a).val
          ∧ (i a).val < win2_2.index t a * S200x128.size a + S200x128.size a := by
  show i ∈ ((View.whole main_v4).slice (win2_2.rect t)).set ↔ _
  rw [View.set_slice_whole, Rect.mem_set_unit]
  exact Iff.rfl

/-- Every row lies in the band of the point that is its quotient by 200. -/
theorem covered (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  have hN : cfg2.N = 50 := N_2
  refine ⟨⟨(i 0).val / 200, by rw [hN]; omega⟩, flush2_2 _, (mem_block _ i).mpr fun a => ?_⟩
  obtain ⟨-, -, -, -, e4, e5⟩ := index_maps ⟨(i 0).val / 200, by rw [hN]; omega⟩
  match a with
  | ⟨0, _⟩ =>
    show win2_2.index _ (0 : Fin 2) * 200 ≤ (i 0).val ∧ (i 0).val < win2_2.index _ (0 : Fin 2) * 200 + 200
    rw [e4]; show (i 0).val / 200 * 200 ≤ (i 0).val ∧ (i 0).val < (i 0).val / 200 * 200 + 200; omega
  | ⟨1, _⟩ =>
    show win2_2.index _ (1 : Fin 2) * 128 ≤ (i 1).val ∧ (i 1).val < win2_2.index _ (1 : Fin 2) * 128 + 128
    rw [e5]; omega

/-- When the region is left its output array is the product of the arrays it found. -/
theorem output (c : Dev nD) : (dat2 (F := Ideal) V c).arrAt 2 cfg2.N = product V c :=
  (dat2 (F := Ideal) V c).arrAt_eq_of_cover 2 _ (fun t _ => written_back V c t) covered

end Cert.Gcn.Region2

end
-- ==== Proof.KernelValue.lean ====
/-
  What the kernel program leaves in its result buffer, as a function of the launch memory.

  The contents of the buffers at the four segment boundaries are followed from the launch. The host stretch lays
  each bias vector out as a one-row matrix and touches nothing else. The first region leaves the linear layer of the
  features in its output array; the second reads that array and leaves the second layer's pre-propagation values;
  the third reads those and leaves the final product. A buffer a region does not write is carried over unchanged, and
  an array a region only reads ends the region as it began. Composed, the result buffer holds the two-layer network
  of the six argument arrays.
-/
import proofs.«105079_g88072599371918_cont_9to1c4b_380_3_alg».proof.Proof.NamedRun
import proofs.«105079_g88072599371918_cont_9to1c4b_380_3_alg».proof.Proof.Region0
import proofs.«105079_g88072599371918_cont_9to1c4b_380_3_alg».proof.Proof.Region1
import proofs.«105079_g88072599371918_cont_9to1c4b_380_3_alg».proof.Proof.Region2
import Idealize.ShloMosaic.Lib.ValueLayout
import Idealize.ShloMosaic.Lib.StableHlo.Run

set_option maxRecDepth 16384

noncomputable section

namespace Cert.Gcn.Value

open Cert.KernelIdeal Cert.KernelIdeal.Gen Cert.Gcn
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- A length-n vector cast to a 1 × n matrix is the vector laid out as a row. -/
theorem cast_eq_asRow {n : ℕ} (b : (⟨1, ![n]⟩ : Shape).Idx → EReal) (h : (⟨1, ![n]⟩ : Shape).ShapeCasts ⟨2, ![1, n]⟩) :
    shapeCast ⟨2, ![1, n]⟩ b h = asRow b := by
  funext j
  obtain ⟨u, i, rfl⟩ : ∃ (u : Fin 1) (i : Fin n), j = ix2 u i := ⟨j 0, j 1, eq_ix2 j⟩
  exact shapeCast_a_1a_apply b h u i

/-! ## After the host stretch -/

theorem entry_features (c : Dev nD) : V1 m ρ c main_arg0 = m ((c : Thread nD τ).loc main_arg0) := by
  show StableHlo.after hostOps0 (W0 m ρ c) (Proc.devRef .tc main_arg0) = _
  after_results <;> rfl

theorem entry_propagation (c : Dev nD) : V1 m ρ c main_arg1 = m ((c : Thread nD τ).loc main_arg1) := by
  show StableHlo.after hostOps0 (W0 m ρ c) (Proc.devRef .tc main_arg1) = _
  after_results <;> rfl

theorem entry_weights1 (c : Dev nD) : V1 m ρ c main_arg2 = m ((c : Thread nD τ).loc main_arg2) := by
  show StableHlo.after hostOps0 (W0 m ρ c) (Proc.devRef .tc main_arg2) = _
  after_results <;> rfl

theorem entry_weights2 (c : Dev nD) : V1 m ρ c main_arg4 = m ((c : Thread nD τ).loc main_arg4) := by
  show StableHlo.after hostOps0 (W0 m ρ c) (Proc.devRef .tc main_arg4) = _
  after_results <;> rfl

/-- The first bias as the host stretch leaves it: the vector laid out as a row. -/
theorem entry_bias1 (c : Dev nD) :
    (V1 m ρ c main_v0 : Mat 1 128) = asRow (N := 128) (m ((c : Thread nD τ).loc main_arg3)) := by
  refine Eq.trans ?_ (cast_eq_asRow (n := 128) (m ((c : Thread nD τ).loc main_arg3)) shapeCasts_S128_S1x128)
  show StableHlo.after hostOps0 (W0 m ρ c) (Proc.devRef .tc main_v0) = _
  after_results <;> rfl

/-- The second bias as the host stretch leaves it. -/
theorem entry_bias2 (c : Dev nD) :
    (V1 m ρ c main_v1 : Mat 1 128) = asRow (N := 128) (m ((c : Thread nD τ).loc main_arg5)) := by
  refine Eq.trans ?_ (cast_eq_asRow (n := 128) (m ((c : Thread nD τ).loc main_arg5)) shapeCasts_S128_S1x128)
  show StableHlo.after hostOps0 (W0 m ρ c) (Proc.devRef .tc main_v1) = _
  after_results <;> rfl

/-! ## After the first region -/

/-- The first region's output: the linear layer of the features. -/
theorem hidden1 (c : Dev nD) :
    (V2 m ρ c main_v2 : Mat 10000 128)
      = affine (m ((c : Thread nD τ).loc main_arg0) : Mat 10000 128) (m ((c : Thread nD τ).loc main_arg2) : Mat 128 128)
          (asRow (N := 128) (m ((c : Thread nD τ).loc main_arg3))) := by
  refine (W2_arr m ρ c 3).trans ((Region0.output (V1 m ρ) c).trans ?_)
  rw [entry_features m ρ c, entry_weights1 m ρ c, entry_bias1 m ρ c]

theorem propagation_at2 (c : Dev nD) : V2 m ρ c main_arg1 = m ((c : Thread nD τ).loc main_arg1) :=
  (W2_of_ne m ρ c main_arg1 (by decide)).trans (entry_propagation m ρ c)

theorem weights2_at2 (c : Dev nD) : V2 m ρ c main_arg4 = m ((c : Thread nD τ).loc main_arg4) :=
  (W2_of_ne m ρ c main_arg4 (by decide)).trans (entry_weights2 m ρ c)

theorem bias2_at2 (c : Dev nD) :
    (V2 m ρ c main_v1 : Mat 1 128) = asRow (N := 128) (m ((c : Thread nD τ).loc main_arg5)) :=
  (W2_of_ne m ρ c main_v1 (by decide)).trans (entry_bias2 m ρ c)

/-! ## After the second region -/

/-- The second region's output: the second linear layer of the positive part of the propagated first layer. -/
theorem hidden2 (c : Dev nD) :
    (V3 m ρ c main_v3 : Mat 10000 128)
      = affine (relu (prod (m ((c : Thread nD τ).loc main_arg1) : Mat 10000 10000)
            (affine (m ((c : Thread nD τ).loc main_arg0) : Mat 10000 128) (m ((c : Thread nD τ).loc main_arg2) : Mat 128 128)
              (asRow (N := 128) (m ((c : Thread nD τ).loc main_arg3))))))
          (m ((c : Thread nD τ).loc main_arg4) : Mat 128 128) (asRow (N := 128) (m ((c : Thread nD τ).loc main_arg5))) := by
  refine (W3_arr m ρ c 4).trans ((Region1.output (V2 m ρ) c).trans ?_)
  unfold Region1.layer
  rw [propagation_at2 m ρ c, hidden1 m ρ c, weights2_at2 m ρ c, bias2_at2 m ρ c]

/-- The propagation matrix is only read by the second region. -/
theorem propagation_at3 (c : Dev nD) : V3 m ρ c main_arg1 = m ((c : Thread nD τ).loc main_arg1) :=
  (W3_arr m ρ c 0).trans (((dat1 (V2 m ρ) c).arrAt_in 0 rfl _).trans ((A_eq1 (V2 m ρ) c 0).trans (propagation_at2 m ρ c)))

/-! ## After the third region -/

/-- The result buffer at the last boundary: the two-layer network of the argument arrays. -/
theorem result (c : Dev nD) :
    (W4 m ρ c (Proc.devRef .tc main_v4) : Mat 10000 128)
      = net (m ((c : Thread nD τ).loc main_arg0) : Mat 10000 128) (m ((c : Thread nD τ).loc main_arg1) : Mat 10000 10000)
          (m ((c : Thread nD τ).loc main_arg2) : Mat 128 128) (asRow (N := 128) (m ((c : Thread nD τ).loc main_arg3)))
          (m ((c : Thread nD τ).loc main_arg4) : Mat 128 128) (asRow (N := 128) (m ((c : Thread nD τ).loc main_arg5))) := by
  refine (W4_arr m ρ c 2).trans ((Region2.output (V3 m ρ) c).trans ?_)
  unfold Region2.product net
  rw [propagation_at3 m ρ c, hidden2 m ρ c]

/-- The kernel program's run, read: the result buffer ends at the network of the arguments, the arguments as launched. -/
theorem run : θ_run defs (onTc (τ := τ) (main (F := Ideal))) ⟨m, fun _ => 0, ρ⟩ (fun r => ∀ c : Dev nD,
      r.2.mem ((c.tc : Thread nD τ).loc main_v4)
        = net (m ((c : Thread nD τ).loc main_arg0) : Mat 10000 128) (m ((c : Thread nD τ).loc main_arg1) : Mat 10000 10000)
            (m ((c : Thread nD τ).loc main_arg2) : Mat 128 128) (asRow (N := 128) (m ((c : Thread nD τ).loc main_arg3)))
            (m ((c : Thread nD τ).loc main_arg4) : Mat 128 128) (asRow (N := 128) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Run.run_result m ρ)

end Cert.Gcn.Value

end
-- ==== Proof.RefValue.lean ====
/-
  The reference program's result is the two-layer network of its arguments.

  The reference is a straight line of host operations: a product with the first weights, the first bias laid out
  as a row and added to every row, a product with the propagation matrix, the positive part against a broadcast
  zero, a product with the second weights, the second bias added the same way, and a last product with the
  propagation matrix. Stage by stage: a host product contracting the left operand's columns with the right
  operand's rows is the matrix product; adding a bias broadcast as a row is the linear layer; the maximum with a
  broadcast zero is the positive part.
-/
import proofs.«105079_g88072599371918_cont_9to1c4b_380_3_alg».proof.Proof.Gen.ReferenceIdeal.Read
import proofs.«105079_g88072599371918_cont_9to1c4b_380_3_alg».proof.Proof.LibPlainDot
import proofs.«105079_g88072599371918_cont_9to1c4b_380_3_alg».proof.Proof.Layers

noncomputable section

open scoped BigOperators

namespace Cert.Gcn.Ref

open Idealize.ShloMosaic Idealize.ShloMosaic.ValueIdx
open Cert.ReferenceIdeal Cert.ReferenceIdeal.Read Cert.Gcn

/-- A host product of an M × K by a K × N array, contracting columns with rows, is the matrix product. -/
theorem host_dot_eq_prod {M K N : ℕ} (x : FVec Ideal ⟨2, ![M, K]⟩ .f32) (y : FVec Ideal ⟨2, ![K, N]⟩ .f32) :
    Host.dotGeneral (F := Ideal) (DotDims.plain M K N) none x y = prod x y := by
  funext j
  obtain ⟨p, q, rfl⟩ : ∃ (p : Fin M) (q : Fin N), j = ix2 p q := ⟨j 0, j 1, eq_ix2 j⟩
  exact LibPlainDot.dotGeneral_apply none .single x y p q

/-- The bias vector broadcast first to one row and then over all rows reads, at (p, q), the vector at q. -/
theorem bias_rows_apply (b : FVec Ideal S128 .f32) (i : S10000x128.Idx) :
    val_main_v2 (F := Ideal) b i = asRow (N := 128) b (ix2 (0 : Fin 1) (i 1)) := by
  rw [val_main_v2_apply, val_main_v1_apply]
  refine congrArg b ?_
  funext a
  match a with
  | ⟨0, _⟩ => rfl

/-- The same for the second layer's bias. -/
theorem bias_rows_apply' (b : FVec Ideal S128 .f32) (i : S10000x128.Idx) :
    val_main_v8 (F := Ideal) b i = asRow (N := 128) b (ix2 (0 : Fin 1) (i 1)) := by
  rw [val_main_v8_apply, val_main_v7_apply]
  refine congrArg b ?_
  funext a
  match a with
  | ⟨0, _⟩ => rfl

/-- The first linear layer. -/
theorem stage_linear1 (x : FVec Ideal S10000x128 .f32) (w : FVec Ideal S128x128 .f32) (b : FVec Ideal S128 .f32) :
    val_main_v3 (F := Ideal) x w b = affine (M := 10000) (K := 128) (N := 128) x w (asRow b) := by
  funext i
  refine (val_main_v3_apply (F := Ideal) x w b i).trans ?_
  refine congrArg₂ (· + ·) ?_ (bias_rows_apply b i)
  exact congrFun (host_dot_eq_prod (M := 10000) (K := 128) (N := 128) x w) i

/-- The first propagation. -/
theorem stage_propagate1 (x : FVec Ideal S10000x128 .f32) (g : FVec Ideal S10000x10000 .f32) (w : FVec Ideal S128x128 .f32)
    (b : FVec Ideal S128 .f32) :
    val_main_v4 (F := Ideal) x g w b = prod (M := 10000) (K := 10000) (N := 128) g (val_main_v3 (F := Ideal) x w b) :=
  host_dot_eq_prod (M := 10000) (K := 10000) (N := 128) g (val_main_v3 (F := Ideal) x w b)

/-- The positive part. -/
theorem stage_relu (x : FVec Ideal S10000x128 .f32) (g : FVec Ideal S10000x10000 .f32) (w : FVec Ideal S128x128 .f32)
    (b : FVec Ideal S128 .f32) :
    val_main_v5 (F := Ideal) x g w b = relu (M := 10000) (N := 128) (val_main_v4 (F := Ideal) x g w b) := by
  funext i
  refine (val_main_v5_apply (F := Ideal) x g w b i).trans ?_
  generalize val_main_v4 (F := Ideal) x g w b = y
  show max (y i) (val_main_call0_v0 (F := Ideal) i) = max (y i) (Ideal.ofBits .f32 0x00000000#32)
  refine congrArg (max (y i)) ?_
  rw [val_main_call0_v0_apply, val_main_call0_cst_apply]
  rfl

/-- The second linear layer. -/
theorem stage_linear2 (x : FVec Ideal S10000x128 .f32) (g : FVec Ideal S10000x10000 .f32) (w : FVec Ideal S128x128 .f32)
    (b : FVec Ideal S128 .f32) (w' : FVec Ideal S128x128 .f32) (b' : FVec Ideal S128 .f32) :
    val_main_v9 (F := Ideal) x g w b w' b'
      = affine (M := 10000) (K := 128) (N := 128) (val_main_v5 (F := Ideal) x g w b) w' (asRow b') := by
  funext i
  refine (val_main_v9_apply (F := Ideal) x g w b w' b' i).trans ?_
  refine congrArg₂ (· + ·) ?_ (bias_rows_apply' b' i)
  exact congrFun (host_dot_eq_prod (M := 10000) (K := 128) (N := 128) (val_main_v5 (F := Ideal) x g w b) w') i

/-- The reference's result: the network of the six arguments, the biases laid out as rows. -/
theorem result_eq_net (x : FVec Ideal S10000x128 .f32) (g : FVec Ideal S10000x10000 .f32) (w : FVec Ideal S128x128 .f32)
    (b : FVec Ideal S128 .f32) (w' : FVec Ideal S128x128 .f32) (b' : FVec Ideal S128 .f32) :
    val_main_v10 (F := Ideal) x g w b w' b'
      = net (n := 10000) (d := 128) (h := 128) (o := 128) x g w (asRow b) w' (asRow b') := by
  unfold net
  rw [← stage_linear1 x w b, ← stage_propagate1 x g w b, ← stage_relu x g w b, ← stage_linear2 x g w b w' b']
  exact host_dot_eq_prod (M := 10000) (K := 10000) (N := 128) g (val_main_v9 (F := Ideal) x g w b w' b')

end Cert.Gcn.Ref

end
-- ==== Proof.lean ====
/-
  A two-layer graph convolution computed in three tiled passes equals its untiled reference on the extended reals.

  Both programs compute  out = g · (relu (g · (x · w₁ + b₁)) · w₂ + b₂)  for a 10000 × 10000 propagation matrix g,
  10000 × 128 features x, 128 × 128 weights and length-128 biases. The reference does it in one line of whole-array
  operations. The kernel program does it in three passes, each over bands of consecutive rows: the first linear layer
  on bands of 2000 feature rows; then, on bands of 200 rows of g, the product with the whole first-layer array, the
  positive part and the second linear layer; then, again on bands of 200 rows of g, the product with the whole
  second-layer array.

  Why they agree. Every step computes row p of its result from row p of its first operand only — a matrix product's
  row p is the sum over l of (row p of the left factor)(l) · (row l of the right factor); adding a bias row and taking
  the positive part act entry by entry. So a band of rows of each step's result is that step applied to the band, and
  since the bands of each pass tile the 10000 rows, each pass leaves exactly the untiled step's array. At the ideal
  values a matrix unit's product into a zero accumulator and a host product are the same plain sum over the
  contracted index, in the same order of factors, so no rearrangement of sums and no finiteness of the inputs is used:
  the two results are the same expression entry by entry, whatever extended reals the inputs hold.

  The pieces: Layers (the three steps and the band law), Payloads (what each kernel body computes from its blocks),
  Region0/1/2 (each pass's output array, for any contents at the pass's entry), NamedRun and KernelValue (the kernel
  program's run with its result named, and the result followed through the three passes), RefValue (the reference's
  result, stage by stage). The kernel program's frames and the reference's run and stage lemmas are the generated
  modules; the idealization rewrote no operation, so the preservation claim is trivial.
-/
import proofs.«105079_g88072599371918_cont_9to1c4b_380_3_alg».proof.Defs
import proofs.«105079_g88072599371918_cont_9to1c4b_380_3_alg».proof.Proof.Gen.Kernel
import proofs.«105079_g88072599371918_cont_9to1c4b_380_3_alg».proof.Proof.Gen.Kernel.Frame
import proofs.«105079_g88072599371918_cont_9to1c4b_380_3_alg».proof.Proof.Gen.KernelIdeal
import proofs.«105079_g88072599371918_cont_9to1c4b_380_3_alg».proof.Proof.Gen.KernelIdeal.Frame
import proofs.«105079_g88072599371918_cont_9to1c4b_380_3_alg».proof.Proof.Gen.ReferenceIdeal
import proofs.«105079_g88072599371918_cont_9to1c4b_380_3_alg».proof.Proof.Gen.Pre_finite_inputs
import proofs.«105079_g88072599371918_cont_9to1c4b_380_3_alg».proof.Proof.Gen.ReferenceIdeal.Run
import proofs.«105079_g88072599371918_cont_9to1c4b_380_3_alg».proof.Proof.Gen.ReferenceIdeal.Read
import proofs.«105079_g88072599371918_cont_9to1c4b_380_3_alg».proof.Proof.KernelValue
import proofs.«105079_g88072599371918_cont_9to1c4b_380_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read at the ideal values. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the two-layer network of those arguments in
    their result buffers: the kernel program by its three passes, the reference stage by stage. -/
theorem algebraic : Cert.algebraic_KernelIdeal_ReferenceIdeal := by
  intro m ρ m' ρ' _ hagree
  refine ⟨_, Cert.Gcn.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v10_eq, Cert.Gcn.Ref.result_eq_net, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
